-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S1024 : Shape := ⟨1, ![1024]⟩
abbrev S5x1024 : Shape := ⟨2, ![5, 1024]⟩
abbrev S5 : Shape := ⟨1, ![5]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S5x1024 : S_.BroadcastsInDim S5x1024 (![] : Fin 0 → Fin S5x1024.rank)
  reducesTo_S5x1024_S_d0_1 : S5x1024.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S5 .f32) (main_v13 : IVec S_ 1) (main_v16 : IVec S5x1024 1) : IVec S_ 1 :=
  let main_c_5 : IVec S_ 1 := constantI S_ 1 1#1
  let main_v17 : IVec S_ 1 := (fun x v => Host.reduce IntOp.andi x v reducesTo_S5x1024_S_d0_1 h_S_) main_v16 main_c_5
  let main_v18 : IVec S_ 1 := andi main_v13 main_v17
  let main_v19 : FVec F S5 .f32 := Host.absf main_arg4
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  main_v23

def fn {F : FTy → Type} [FloatOps F] (main_arg0 : FVec F S16384x512 .f32) (main_arg1 : FVec F S1024x512 .f32) (main_arg2 : FVec F S1024 .f32) (main_arg3 : FVec F S5x1024 .f32) (main_arg4 : FVec F S5 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S5x1024 .f32 := Host.absf main_arg3
  let main_cst_4 : FVec F S_ .f32 := constant S_ .f32 0x7F800000#32
  let main_v15 : FVec F S5x1024 .f32 := broadcastInDim S5x1024 ![] bcast_S_S5x1024 main_cst_4
  let main_v16 : IVec S5x1024 1 := cmpf .olt main_v14 main_v15
  fn_part1 (F := F) main_arg4 main_v13 main_v16
-- ==== Kernel.lean ====
abbrev S16384x512 : Shape := ⟨2, ![16384, 512]⟩
abbrev S1024x512 : Shape := ⟨2, ![1024, 512]⟩
abbrev S1024 : Shape := ⟨1, ![1024]⟩
abbrev S5x1024 : Shape := ⟨2, ![5, 1024]⟩
abbrev S5 : Shape := ⟨1, ![5]⟩
abbrev S512x1024 : Shape := ⟨2, ![512, 1024]⟩
abbrev S_ : Shape := ⟨0, ![]⟩
abbrev S1x1024 : Shape := ⟨2, ![1, 1024]⟩
abbrev S1024x5 : Shape := ⟨2, ![1024, 5]⟩
abbrev S1x5 : Shape := ⟨2, ![1, 5]⟩
abbrev S16384x5 : Shape := ⟨2, ![16384, 5]⟩
abbrev S1024x1 : Shape := ⟨2, ![1024, 1]⟩
abbrev S1024x1024 : Shape := ⟨2, ![1024, 1024]⟩

abbrev nBuf : Space → Nat
  | .hbm => 18
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S1024, .f32⟩
  | .hbm, ⟨3, _⟩ => ⟨S5x1024, .f32⟩
  | .hbm, ⟨4, _⟩ => ⟨S5, .f32⟩
  | .hbm, ⟨5, _⟩ => ⟨S512x1024, .f32⟩
  | .hbm, ⟨6, _⟩ => ⟨S1024x512, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S1024x5, .f32⟩
  | .hbm, ⟨16, _⟩ => ⟨S1x5, .f32⟩
  | .hbm, ⟨17, _⟩ => ⟨S16384x5, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S1x1024, .f32⟩
  | .local _ .vmem, ⟨4, _⟩ => ⟨S1x1024, .f32⟩
  | .local _ .vmem, ⟨5, _⟩ => ⟨S1024x5, .f32⟩
  | .local _ .vmem, ⟨6, _⟩ => ⟨S1x5, .f32⟩
  | .local _ .vmem, ⟨7, _⟩ => ⟨S1024x5, .f32⟩
  | .local _ .vmem, ⟨8, _⟩ => ⟨S1024x5, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x5 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1024x512_S512x1024_1_0 : S1024x512.Transposes [1, 0] S512x1024
  reducesTo_S1024x512_S1024_d1 : S1024x512.ReducesTo [1] S1024
  h_S_ : 0 < S_.numel
  shapeCasts_S1024_S1x1024 : S1024.ShapeCasts S1x1024
  bcast_S_S1024 : S_.BroadcastsInDim S1024 (![] : Fin 0 → Fin S1024.rank)
  transposes_S5x1024_S1024x5_1_0 : S5x1024.Transposes [1, 0] S1024x5
  shapeCasts_S5_S1x5 : S5.ShapeCasts S1x5
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1024x512_S1024 : S1024x512.Reduces [1] S1024
  shapeCasts_S1024_S1024x1 : S1024.ShapeCasts S1024x1
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x5_S1024x5_0_0 : ∀ a, (![0, 0] : Fin 2 → Nat) a + S1024x5.size a ≤ S1024x5.size a
  h_S1024x5 : 0 < S1024x5.numel
  shapeCasts_S1024x5_S1024x5 : S1024x5.ShapeCasts S1024x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S1024x5 : S1x5.Broadcasts S1024x5
  dot_S1024x512_S512x1024_S1024x1024_1_0_0_1_n_n_wf : DotDims.WF S1024x512 S512x1024 S1024x1024 [1] [0] [0] [1] [] []
  dot_S1024x1024_S1024x5_S1024x5_1_0_0_1_n_n_wf : DotDims.WF S1024x1024 S1024x5 S1024x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x5.size a ≤ S1024x5.size a
  hwx0_4 : ∀ i : grid0.Coords, EltTy.bits .f32 = 32 ∨ (Rect.block (s := S1024x5) S1024x5.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x5.size a ≤ S1x5.size a
  hwx0_5 : ∀ i : grid0.Coords, EltTy.bits .f32 = 32 ∨ (Rect.block (s := S1x5) S1x5.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x5.size a ≤ S16384x5.size a
  hwx0_6 : ∀ i : grid0.Coords, EltTy.bits .f32 = 32 ∨ (Rect.block (s := S16384x5) S1024x5.size (cc0_transform_6 i) (hinb0_6 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x5_S1024x5_1_0_0_1_n_n : DotDims S1024x1024 S1024x5 S1024x5 where
  lhsContracting := [1]
  rhsContracting := [0]
  lhsNonContracting := [0]
  rhsNonContracting := [1]
  lhsBatch := []
  rhsBatch := []
  wf := dot_S1024x1024_S1024x5_S1024x5_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x5.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S1024 : Shape := ⟨1, ![1024]⟩
abbrev S5x1024 : Shape := ⟨2, ![5, 1024]⟩
abbrev S5 : Shape := ⟨1, ![5]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1024 : Shape := ⟨2, ![16384, 1024]⟩
abbrev S16384x5 : Shape := ⟨2, ![16384, 5]⟩
abbrev S1x5 : Shape := ⟨2, ![1, 5]⟩

abbrev nBuf : Space → Nat
  | .hbm => 36
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S1024, .f32⟩
  | .hbm, ⟨3, _⟩ => ⟨S5x1024, .f32⟩
  | .hbm, ⟨4, _⟩ => ⟨S5, .f32⟩
  | .hbm, ⟨5, _⟩ => ⟨S16384x512, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S1024x512, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x5, .f32⟩
  | .hbm, ⟨33, _⟩ => ⟨S1x5, .f32⟩
  | .hbm, ⟨34, _⟩ => ⟨S16384x5, .f32⟩
  | .hbm, ⟨35, _⟩ => ⟨S16384x5, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1024x512_S1024_d1 : S1024x512.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S5_S1x5_1 : S5.BroadcastsInDim S1x5 (![1] : Fin 1 → Fin S1x5.rank)
  bcast_S1x5_S16384x5_0_1 : S1x5.BroadcastsInDim S16384x5 (![0, 1] : Fin 2 → Fin S16384x5.rank)
  dot_S16384x512_S1024x512_S16384x1024_1_1_0_0_n_n_wf : DotDims.WF S16384x512 S1024x512 S16384x1024 [1] [1] [0] [0] [] []
  dot_S16384x1024_S5x1024_S16384x5_1_1_0_0_n_n_wf : DotDims.WF S16384x1024 S5x1024 S16384x5 [1] [1] [0] [0] [] []

variable [Facts₀]

def dot_S16384x512_S1024x512_S16384x1024_1_1_0_0_n_n : DotDims S16384x512 S1024x512 S16384x1024 where
  lhsContracting := [1]
  rhsContracting := [1]
  lhsNonContracting := [0]
  rhsNonContracting := [0]
  lhsBatch := []
  rhsBatch := []
  wf := dot_S16384x512_S1024x512_S16384x1024_1_1_0_0_n_n_wf
def dot_S16384x1024_S5x1024_S16384x5_1_1_0_0_n_n : DotDims S16384x1024 S5x1024 S16384x5 where
  lhsContracting := [1]
  rhsContracting := [1]
  lhsNonContracting := [0]
  rhsNonContracting := [0]
  lhsBatch := []
  rhsBatch := []
  wf := dot_S16384x1024_S5x1024_S16384x5_1_1_0_0_n_n_wf

class Facts : Prop extends Facts₀ where

variable [Facts]
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.LibColumn.lean ====
/-
  A column of row statistics, read at an entry.

  A reduction along the rows of a matrix that keeps the reduced axis (a sum with `keepdims`) produces one value per
  row, stored as an a×1 column, and is then spread over the b columns of an a×b matrix. Reading the results at an
  entry: the a×1 column made from an a-vector has, at (i, 0), the vector's entry i; and the a×b matrix made from an
  a×1 column has, at (i, j), the column's entry (i, 0), whatever j. Both facts are arithmetic on row-major positions.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.KernelPayload.lean ====
/-
  The kernel body's stored value, read at one entry.

  At a grid point the body holds a block `x` of 1024 input rows (1024×512), the transposed centres `ct` (512×1024),
  the row of squared centre norms `c2` (1×1024), the row of inverse squared widths `w` (1×1024), the transposed
  head weights `ht` (1024×5) and the head bias `hb` (1×5). It stores, at (p, n),

      ∑ₒ exp ((0 − max (∑ᵢ x(p,i)² + c2(0,o) − 2 · ∑ᵢ x(p,i)·ct(i,o)) 0) · w(0,o)) · ht(o,n) + hb(0,n).

  The body is read in five stages, each a small function of its operands: the rows' squared norms, the cross
  products, the clamped squared distances, the radial-basis values, and the linear head.
-/
import proofs.«135704_j72138270704369_1_alg».proof.Proof.Gen.KernelIdeal.Skeleton
import proofs.«135704_j72138270704369_1_alg».proof.Proof.LibPlainDot
import proofs.«135704_j72138270704369_1_alg».proof.Proof.LibColumn
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The five stages -/

/-- The squared norm of each row of the block. -/
def rowSq (x : FVec Ideal S1024x512 .f32) : FVec Ideal S1024 .f32 :=
  multiReduction .add [1] S1024 (mulf x x) 0x00000000#32 reduces_S1024x512_S1024 (.inl rfl) rfl

/-- The products of the block's rows with the centres. -/
def cross (x : FVec Ideal S1024x512 .f32) (ct : FVec Ideal S512x1024 .f32) : FVec Ideal S1024x1024 .f32 :=
  matmul dot_S1024x512_S512x1024_S1024x1024_1_0_0_1_n_n none (truncf .bf16 x bitsLt_bf16_f32)
    (truncf .bf16 (shapeCast S512x1024 ct shapeCasts_S512x1024_S512x1024) bitsLt_bf16_f32)
    (constant S1024x1024 .f32 0x00000000#32)

/-- The squared distances, clamped below at zero. -/
def sqDist (r : FVec Ideal S1024 .f32) (c2 : FVec Ideal S1x1024 .f32) (xc : FVec Ideal S1024x1024 .f32) :
    FVec Ideal S1024x1024 .f32 :=
  maximumf
    (subf
      (addf (broadcastTo S1024x1024 (shapeCast S1024x1 r shapeCasts_S1024_S1024x1) broadcasts_S1024x1_S1024x1024)
        (broadcastTo S1024x1024 (shapeCast S1x1024 c2 shapeCasts_S1x1024_S1x1024) broadcasts_S1x1024_S1024x1024))
      (mulf (broadcast S1024x1024 (Scalar.ofBits .f32 0x40000000#32)) xc))
    (broadcast S1024x1024 (Scalar.ofBits .f32 0x00000000#32))

/-- The radial-basis values: `exp` of the negated squared distance times the inverse squared width. -/
def basis (s : FVec Ideal S1024x1024 .f32) (w : FVec Ideal S1x1024 .f32) : FVec Ideal S1024x1024 .f32 :=
  exp (mulf (subf (broadcast S1024x1024 (Scalar.ofBits .f32 0x00000000#32)) s)
    (broadcastTo S1024x1024 (shapeCast S1x1024 w shapeCasts_S1x1024_S1x1024) broadcasts_S1x1024_S1024x1024))

/-- The linear head: the basis values times the head weights, plus the bias. -/
def head (e : FVec Ideal S1024x1024 .f32) (ht : FVec Ideal S1024x5 .f32) (hb : FVec Ideal S1x5 .f32) :
    FVec Ideal S1024x5 .f32 :=
  addf
    (matmul dot_S1024x1024_S1024x5_S1024x5_1_0_0_1_n_n none (truncf .bf16 e bitsLt_bf16_f32)
      (truncf .bf16 (shapeCast S1024x5 ht shapeCasts_S1024x5_S1024x5) bitsLt_bf16_f32)
      (constant S1024x5 .f32 0x00000000#32))
    (broadcastTo S1024x5 (shapeCast S1x5 hb shapeCasts_S1x5_S1x5) broadcasts_S1x5_S1024x5)

/-- The body's stored value is the composition of the five stages. -/
theorem pay_eq (x : Vec Ideal S1024x512 .f32) (ct : Vec Ideal S512x1024 .f32) (c2 w : Vec Ideal S1x1024 .f32)
    (ht : Vec Ideal S1024x5 .f32) (hb : Vec Ideal S1x5 .f32) :
    k0_pay1 (F := Ideal) x ct c2 w ht hb = head (basis (sqDist (rowSq x) c2 (cross x ct)) w) ht hb := rfl

/-! ## Each stage at an entry -/

/-- A row's squared norm is the sum of the squares of its 512 entries. -/
theorem rowSq_apply (x : FVec Ideal S1024x512 .f32) (p : Fin 1024) :
    rowSq x (ix1 p) = ∑ i : Fin 512, x (ix2 p i) * x (ix2 p i) := by
  unfold rowSq
  refine (Ideal.multiReduction_add_single (mulf x x) 0x00000000#32 reduces_S1024x512_S1024 (.inl rfl) rfl (ix1 p)).trans ?_
  refine Finset.sum_congr rfl fun i _ => ?_
  have e : reduces_S1024x512_S1024.lift (ix1 p) i = ix2 p i :=
    funext fun a => Fin.ext (by match a with | ⟨0, _⟩ => rfl | ⟨1, _⟩ => rfl)
  rw [e]
  rfl

/-- The cross product at (p, o) is the sum over the 512 features. -/
theorem cross_apply (x : FVec Ideal S1024x512 .f32) (ct : FVec Ideal S512x1024 .f32) (p o : Fin 1024) :
    cross x ct (ix2 p o) = ∑ i : Fin 512, x (ix2 p i) * ct (ix2 i o) := by
  unfold cross
  rw [shapeCast_self]
  exact LibPlainDot.matmul_zero_apply _ rfl none _ _ p o

/-- The clamped squared distance at (p, o). -/
theorem sqDist_apply (r : FVec Ideal S1024 .f32) (c2 : FVec Ideal S1x1024 .f32) (xc : FVec Ideal S1024x1024 .f32)
    (p o : Fin 1024) :
    sqDist r c2 xc (ix2 p o)
      = max (r (ix1 p) + c2 (ix2 (0 : Fin 1) o) - Ideal.ofBits .f32 0x40000000#32 * xc (ix2 p o))
          (Ideal.ofBits .f32 0x00000000#32) := by
  unfold sqDist
  rw [shapeCast_self]
  simp only [maximumf_apply, subf_apply, addf_apply, mulf_apply, broadcast_apply]
  rw [LibColumn.broadcastTo_a1_ab_apply _ _ p o, LibColumn.shapeCast_a_a1_apply _ _ p (0 : Fin 1),
    broadcastTo_1b_ab_apply _ _ p o]
  rfl

/-- The radial-basis value at (p, o). -/
theorem basis_apply (s : FVec Ideal S1024x1024 .f32) (w : FVec Ideal S1x1024 .f32) (p o : Fin 1024) :
    basis s w (ix2 p o)
      = Ideal.exp ((Ideal.ofBits .f32 0x00000000#32 - s (ix2 p o)) * w (ix2 (0 : Fin 1) o)) := by
  unfold basis
  rw [shapeCast_self]
  show Ideal.exp (_ : EReal) = _
  simp only [subf_apply, mulf_apply, broadcast_apply]
  rw [broadcastTo_1b_ab_apply _ _ p o]
  rfl

/-- The head's value at (p, n). -/
theorem head_apply (e : FVec Ideal S1024x1024 .f32) (ht : FVec Ideal S1024x5 .f32) (hb : FVec Ideal S1x5 .f32)
    (p : Fin 1024) (n : Fin 5) :
    head e ht hb (ix2 p n) = (∑ o : Fin 1024, e (ix2 p o) * ht (ix2 o n)) + hb (ix2 (0 : Fin 1) n) := by
  unfold head
  rw [shapeCast_self, shapeCast_self, addf_apply, broadcastTo_1b_ab_apply _ _ p n]
  exact congrArg (· + hb (ix2 (0 : Fin 1) n)) (LibPlainDot.matmul_zero_apply _ rfl none _ _ p n)

/-! ## The stored value at an entry -/

/-- The body's stored value at (p, n), from its six operands. -/
theorem pay_apply (x : Vec Ideal S1024x512 .f32) (ct : Vec Ideal S512x1024 .f32) (c2 w : Vec Ideal S1x1024 .f32)
    (ht : Vec Ideal S1024x5 .f32) (hb : Vec Ideal S1x5 .f32) (p : Fin 1024) (n : Fin 5) :
    k0_pay1 (F := Ideal) x ct c2 w ht hb (ix2 p n)
      = (∑ o : Fin 1024,
          Ideal.exp ((Ideal.ofBits .f32 0x00000000#32
              - max ((∑ i : Fin 512, x (ix2 p i) * x (ix2 p i)) + c2 (ix2 (0 : Fin 1) o)
                  - Ideal.ofBits .f32 0x40000000#32 * ∑ i : Fin 512, x (ix2 p i) * ct (ix2 i o))
                (Ideal.ofBits .f32 0x00000000#32))
            * w (ix2 (0 : Fin 1) o)) * ht (ix2 o n))
        + hb (ix2 (0 : Fin 1) n) := by
  rw [pay_eq, head_apply]
  simp only [basis_apply, sqDist_apply, rowSq_apply, cross_apply]

end Cert.KernelIdeal.Payload

end
-- ==== Proof.HostPrefix.lean ====
/-
  The arrays the kernel's region finds, read at an entry.

  Before the region is entered the host prepares five arrays from the arguments `centres`, `log_sigmas`, `fc_w`,
  `fc_b`: the transposed centres, ct(i,o) = centres(o,i); the row of squared centre norms,
  c2(0,o) = 0 + ∑ᵢ centres(o,i)²; the row of inverse squared widths, w(0,o) = exp (−2 · log_sigmas(o)); the
  transposed head weights, ht(o,n) = fc_w(n,o); and the head bias as a row, hb(0,n) = fc_b(n).
-/
import proofs.«135704_j72138270704369_1_alg».proof.Proof.Gen.KernelIdeal.Frame
import Idealize.ShloMosaic.Lib.StableHlo.Run
import Idealize.ShloMosaic.Lib.ValueLayout
import Idealize.ShloMosaic.PureOps.Ideal.Laws

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-- The five argument arrays on a core, as launched, each at its type of extended-real arrays. -/
abbrev argX : S16384x512.Idx → EReal := m ((c : Thread nD τ).loc main_arg0)
abbrev argC : S1024x512.Idx → EReal := m ((c : Thread nD τ).loc main_arg1)
abbrev argL : S1024.Idx → EReal := m ((c : Thread nD τ).loc main_arg2)
abbrev argW : S5x1024.Idx → EReal := m ((c : Thread nD τ).loc main_arg3)
abbrev argB : S5.Idx → EReal := m ((c : Thread nD τ).loc main_arg4)

/-- The host's sum of squares along a row of a 1024×512 matrix: the initial value plus the 512 squares. -/
theorem hostRowSq_apply (C : FVec Ideal S1024x512 .f32) (o : Fin 1024) :
    Host.reduceAdd (F := Ideal) (mulf C C) (constant (F := Ideal) S_ .f32 0x00000000#32) reducesTo_S1024x512_S1024_d1 h_S_ (ix1 o)
      = Ideal.ofBits .f32 0x00000000#32 + ∑ i : Fin 512, C (ix2 o i) * C (ix2 o i) := by
  simp only [Host.reduceAdd, Ideal.hostReduceAdd_def]
  rw [Ideal.hostReduceAdd_single reducesTo_S1024x512_S1024_d1 (by decide)]
  refine congrArg (_ + ·) (Finset.sum_congr rfl fun k _ => ?_)
  exact congrArg (mulf C C) (funext fun a => Fin.ext (by match a with | ⟨0, _⟩ => rfl | ⟨1, _⟩ => rfl))

/-- The transposed centres at (i, o) are the centres at (o, i). -/
theorem ct_apply (i : Fin 512) (o : Fin 1024) :
    (V m c main_v0 : S512x1024.Idx → EReal) (ix2 i o) = argC m c (ix2 o i) := by
  have e : (V m c main_v0 : S512x1024.Idx → EReal)
      = transpose S512x1024 [1, 0] (m ((c : Thread nD τ).loc main_arg1)) transposes_S1024x512_S512x1024_1_0 := by
    dsimp only [Gen.V, Gen.hostOps0]; after_results
  exact (congrFun e (ix2 i o)).trans (transpose_ix2_apply _ _ i o)

/-- The row of squared centre norms at (0, o). -/
theorem c2_apply (o : Fin 1024) :
    (V m c main_v3 : S1x1024.Idx → EReal) (ix2 (0 : Fin 1) o)
      = Ideal.ofBits .f32 0x00000000#32
        + ∑ i : Fin 512, argC m c (ix2 o i)
            * argC m c (ix2 o i) := by
  have e : (V m c main_v3 : S1x1024.Idx → EReal)
      = shapeCast S1x1024 (Host.reduceAdd (F := Ideal) (mulf (m ((c : Thread nD τ).loc main_arg1)) (m ((c : Thread nD τ).loc main_arg1)))
          (constant (F := Ideal) S_ .f32 0x00000000#32) reducesTo_S1024x512_S1024_d1 h_S_) shapeCasts_S1024_S1x1024 := by
    dsimp only [Gen.V, Gen.hostOps0]; after_results; rfl
  exact (congrFun e (ix2 (0 : Fin 1) o)).trans ((shapeCast_a_1a_apply _ _ (0 : Fin 1) o).trans (hostRowSq_apply _ o))

/-- The row of inverse squared widths at (0, o). -/
theorem w_apply (o : Fin 1024) :
    (V m c main_v7 : S1x1024.Idx → EReal) (ix2 (0 : Fin 1) o)
      = Ideal.exp (Ideal.ofBits .f32 0xC0000000#32 * argL m c (ix1 o)) := by
  have e : (V m c main_v7 : S1x1024.Idx → EReal)
      = shapeCast S1x1024 (Host.exp (F := Ideal) (mulf (broadcastInDim S1024 ![] bcast_S_S1024 (constant (F := Ideal) S_ .f32 0xC0000000#32))
          (m ((c : Thread nD τ).loc main_arg2)))) shapeCasts_S1024_S1x1024 := by
    dsimp only [Gen.V, Gen.hostOps0]; after_results; rfl
  exact (congrFun e (ix2 (0 : Fin 1) o)).trans ((shapeCast_a_1a_apply _ _ (0 : Fin 1) o).trans rfl)

/-- The transposed head weights at (o, n) are the head weights at (n, o). -/
theorem ht_apply (o : Fin 1024) (n : Fin 5) :
    (V m c main_v8 : S1024x5.Idx → EReal) (ix2 o n) = argW m c (ix2 n o) := by
  have e : (V m c main_v8 : S1024x5.Idx → EReal)
      = transpose S1024x5 [1, 0] (m ((c : Thread nD τ).loc main_arg3)) transposes_S5x1024_S1024x5_1_0 := by
    dsimp only [Gen.V, Gen.hostOps0]; after_results
  exact (congrFun e (ix2 o n)).trans (transpose_ix2_apply _ _ o n)

/-- The head bias as a row at (0, n). -/
theorem hb_apply (n : Fin 5) :
    (V m c main_v9 : S1x5.Idx → EReal) (ix2 (0 : Fin 1) n) = argB m c (ix1 n) := by
  have e : (V m c main_v9 : S1x5.Idx → EReal) = shapeCast S1x5 (m ((c : Thread nD τ).loc main_arg4)) shapeCasts_S5_S1x5 := by
    dsimp only [Gen.V, Gen.hostOps0]; after_results; rfl
  exact (congrFun e (ix2 (0 : Fin 1) n)).trans (shapeCast_a_1a_apply _ _ (0 : Fin 1) n)

end Cert.KernelIdeal.HostPrefix

end
-- ==== Proof.RbfLaw.lean ====
/-
  The scalar law of the Gaussian radial-basis exponent on the extended reals.

  One program multiplies the negated squared distance `s` by `exp (-2·l)`; the other divides the distance
  `√s` by the width `exp l`, squares the quotient and negates. For `0 ≤ s ≤ +∞` and a real `l` the two
  exponents are one extended real: on a real `s` both are `-(s · exp (-2·l))`, since `(√s)² = s` and
  `exp (-2·l) = (1 / exp l)²`; at `s = +∞` both are `-∞`, because `exp l` is a positive real. A real `l` is
  needed: at `l = ±∞` the width is `0` or `+∞` and the two sides part.
-/
import Idealize.ShloMosaic.PureOps.Ideal
import Idealize.ShloMosaic.PureOps.Ideal.Laws

noncomputable section

namespace Cert.RbfLaw

open Idealize.ShloMosaic

/-- The pattern of `-2.0` denotes the real `-2`. -/
theorem ofBits_neg_two : Ideal.ofBits .f32 0xC0000000#32 = ((-2 : ℝ) : EReal) := by
  simp [Ideal.ofBits, Ideal.ieee, -EReal.coe_mul]; norm_num

/-- On the reals: `exp (-2·l)` is the square of the reciprocal of `exp l`. -/
theorem exp_neg_two_mul (l : ℝ) : Real.exp (-2 * l) = (1 / Real.exp l) * (1 / Real.exp l) := by
  rw [show -2 * l = -l + -l by ring, Real.exp_add, Real.exp_neg, one_div]

/-- The two exponents agree: `(0 - s) · exp (-2·l) = -((√s / exp l) · (√s / exp l))` for `0 ≤ s` and real `l`. -/
theorem exponent_eq (s : EReal) (hs : 0 ≤ s) (l : ℝ) :
    (0 - s) * Ideal.exp (((-2 : ℝ) : EReal) * (l : EReal))
      = -(Ideal.div (Ideal.sqrt s) (Ideal.exp (l : EReal)) * Ideal.div (Ideal.sqrt s) (Ideal.exp (l : EReal))) := by
  have he : Real.exp l ≠ 0 := (Real.exp_pos l).ne'
  rw [← EReal.coe_mul, Ideal.exp_coe, Ideal.exp_coe, Ideal.div_coe he]
  induction s using EReal.rec with
  | bot => exact absurd hs (by simp)
  | top =>
    have hpos : (0 : ℝ) < 1 / Real.exp l := by positivity
    have hpos2 : (0 : ℝ) < Real.exp (-2 * l) := Real.exp_pos _
    rw [Ideal.sqrt_top, EReal.top_mul_coe_of_pos hpos, EReal.top_mul_top, zero_sub, EReal.neg_top,
      EReal.bot_mul_coe_of_pos hpos2]
  | coe r =>
    have hr : 0 ≤ r := EReal.coe_nonneg.mp hs
    rw [Ideal.sqrt_coe, if_neg (not_lt.mpr hr), zero_sub, ← EReal.coe_neg, ← EReal.coe_mul, ← EReal.coe_mul,
      ← EReal.coe_mul, ← EReal.coe_neg, exp_neg_two_mul]
    congr 1
    calc -r * (1 / Real.exp l * (1 / Real.exp l))
        = -((Real.sqrt r * Real.sqrt r) * (1 / Real.exp l * (1 / Real.exp l))) := by rw [Real.mul_self_sqrt hr]; ring
      _ = -(Real.sqrt r * (1 / Real.exp l) * (Real.sqrt r * (1 / Real.exp l))) := by ring

/-- The same with the two literals as their patterns: the radial-basis value `exp` of either exponent, where the
    squared distance has been clamped below at the pattern of `0.0`. -/
theorem basis_eq (a : EReal) (l : ℝ) :
    Ideal.exp ((Ideal.ofBits .f32 0x00000000#32 - max a (Ideal.ofBits .f32 0x00000000#32))
        * Ideal.exp (Ideal.ofBits .f32 0xC0000000#32 * (l : EReal)))
      = Ideal.exp (-(Ideal.div (Ideal.sqrt (max a (Ideal.ofBits .f32 0x00000000#32))) (Ideal.exp (l : EReal))
          * Ideal.div (Ideal.sqrt (max a (Ideal.ofBits .f32 0x00000000#32))) (Ideal.exp (l : EReal)))) := by
  rw [ofBits_neg_two, Ideal.ofBits_zero_f32, exponent_eq _ (le_max_right a 0) l]

end Cert.RbfLaw

end
-- ==== Proof.RbfSpec.lean ====
/-
  The network's output as one function of its five argument arrays, in two arrangements, and their equality.

  For inputs x (16384×512), centres c (1024×512), log-widths l (1024), head weights f (5×1024) and head bias g (5),
  with the clamped squared distance

      s(b,o) = max (∑ᵢ x(b,i)² + (0 + ∑ᵢ c(o,i)²) − 2 · ∑ᵢ x(b,i)·c(o,i)) 0,

  one arrangement is  out(b,n) = ∑ₒ exp ((0 − s(b,o)) · exp (−2 · l(o))) · f(n,o) + g(n),  and the other divides the
  distance by the width first:  ∑ₒ exp (−((√s(b,o) / exp l(o))²)) · f(n,o) + g(n),  its squared input norm started
  from an explicit `0 +`. They agree whenever every log-width is a real number (the scalar law of the exponent).
-/
import proofs.«135704_j72138270704369_1_alg».proof.Proof.RbfLaw
import Idealize.ShloMosaic.Lib.ValueIdx

noncomputable section

namespace Cert.RbfSpec

open Idealize.ShloMosaic Idealize.ShloMosaic.ValueIdx

variable (x : (⟨2, ![16384, 512]⟩ : Shape).Idx → EReal) (c : (⟨2, ![1024, 512]⟩ : Shape).Idx → EReal)
  (l : (⟨1, ![1024]⟩ : Shape).Idx → EReal) (f : (⟨2, ![5, 1024]⟩ : Shape).Idx → EReal) (g : (⟨1, ![5]⟩ : Shape).Idx → EReal)

/-- The squared distance before the clamp, the input's squared norm a bare sum. -/
def rawDist (b : Fin 16384) (o : Fin 1024) : EReal :=
  (∑ i : Fin 512, x (ix2 b i) * x (ix2 b i)) + (Ideal.ofBits .f32 0x00000000#32 + ∑ i : Fin 512, c (ix2 o i) * c (ix2 o i))
    - Ideal.ofBits .f32 0x40000000#32 * ∑ i : Fin 512, x (ix2 b i) * c (ix2 o i)

/-- The same with the input's squared norm started from an explicit zero. -/
def rawDist' (b : Fin 16384) (o : Fin 1024) : EReal :=
  (Ideal.ofBits .f32 0x00000000#32 + ∑ i : Fin 512, x (ix2 b i) * x (ix2 b i))
      + (Ideal.ofBits .f32 0x00000000#32 + ∑ i : Fin 512, c (ix2 o i) * c (ix2 o i))
    - Ideal.ofBits .f32 0x40000000#32 * ∑ i : Fin 512, x (ix2 b i) * c (ix2 o i)

theorem rawDist'_eq (b : Fin 16384) (o : Fin 1024) : rawDist' x c b o = rawDist x c b o := by
  unfold rawDist' rawDist
  rw [Ideal.ofBits_zero_f32, zero_add]

/-- The output at (b, n): the exponent a product with `exp (−2·l)`. -/
def out (b : Fin 16384) (n : Fin 5) : EReal :=
  (∑ o : Fin 1024,
      Ideal.exp ((Ideal.ofBits .f32 0x00000000#32 - max (rawDist x c b o) (Ideal.ofBits .f32 0x00000000#32))
        * Ideal.exp (Ideal.ofBits .f32 0xC0000000#32 * l (ix1 o))) * f (ix2 n o))
    + g (ix1 n)

/-- The output at (b, n): the exponent the negated square of distance over width. -/
def out' (b : Fin 16384) (n : Fin 5) : EReal :=
  (∑ o : Fin 1024,
      Ideal.exp (-(Ideal.div (Ideal.sqrt (max (rawDist' x c b o) (Ideal.ofBits .f32 0x00000000#32))) (Ideal.exp (l (ix1 o)))
          * Ideal.div (Ideal.sqrt (max (rawDist' x c b o) (Ideal.ofBits .f32 0x00000000#32))) (Ideal.exp (l (ix1 o)))))
        * f (ix2 n o))
    + g (ix1 n)

/-- The whole output array. -/
def outArr : (⟨2, ![16384, 5]⟩ : Shape).Idx → EReal := fun j => out x c l f g (j 0) (j 1)

/-- With real log-widths the two arrangements are one function. -/
theorem out'_eq (hl : ∀ o : Fin 1024, ∃ r : ℝ, l (ix1 o) = (r : EReal)) (b : Fin 16384) (n : Fin 5) :
    out' x c l f g b n = out x c l f g b n := by
  unfold out' out
  refine congrArg (· + g (ix1 n)) (Finset.sum_congr rfl fun o _ => ?_)
  obtain ⟨r, hr⟩ := hl o
  rw [rawDist'_eq, hr]
  exact congrArg (· * f (ix2 n o)) (RbfLaw.basis_eq _ r).symm

end Cert.RbfSpec

end
-- ==== Proof.KernelValue.lean ====
/-
  The kernel's result array, as one function of the argument arrays.

  The grid has 16 points; point t reads rows 1024·t … 1024·t+1023 of the inputs and the whole of the five arrays the
  host prepared, and writes rows 1024·t … 1024·t+1023 of the 16384×5 result. So what point t writes back is block t of
  the network's output `RbfSpec.outArr` of the arguments, and the sixteen blocks tile the result: after the run the
  result array is that function.
-/
import proofs.«135704_j72138270704369_1_alg».proof.Proof.Gen.KernelIdeal.Value
import proofs.«135704_j72138270704369_1_alg».proof.Proof.KernelPayload
import proofs.«135704_j72138270704369_1_alg».proof.Proof.HostPrefix
import proofs.«135704_j72138270704369_1_alg».proof.Proof.RbfSpec

set_option maxRecDepth 16384

noncomputable section

namespace Cert.KernelIdeal.KernelValue

open Cert.KernelIdeal Cert.KernelIdeal.Gen Cert.KernelIdeal.HostPrefix Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the grid: the input rows and the result rows move with the point, every
    other window stays at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The six input blocks at a point, read at an entry -/

/-- The input block at point t, row p, is row 1024·t + p of the inputs. -/
theorem blk_x (c : Dev nD) (t : Fin cfg0.N) (p : Fin 1024) (i : Fin 512) (b : Fin 16384) (hb : b.val = t.val * 1024 + p.val) :
    iblk m c 0 t (ix2 p i) = argX m c (ix2 b i) := by
  obtain ⟨e0, e1, -⟩ := index_maps t
  show V m c main_arg0 (((cfg0.win 0).blk t).view.emb (ix2 p i)) = _
  rw [V_main_arg0]
  refine congrArg (argX m c) (funext fun a => Fin.ext ?_)
  match a with
  | ⟨0, _⟩ => show win0_0.index t (0 : Fin 2) * 1024 + 1 * p.val = b.val; omega
  | ⟨1, _⟩ => show win0_0.index t (1 : Fin 2) * 512 + 1 * i.val = i.val; omega

theorem blk_ct (c : Dev nD) (t : Fin cfg0.N) (i : Fin 512) (o : Fin 1024) :
    iblk m c 1 t (ix2 i o) = argC m c (ix2 o i) := by
  obtain ⟨-, -, e0, e1, -⟩ := index_maps t
  have h : ((cfg0.win 1).blk t).view.emb (ix2 i o) = ix2 i o := funext fun a => Fin.ext (by
    match a with
    | ⟨0, _⟩ => show win0_1.index t (0 : Fin 2) * 512 + 1 * i.val = i.val; omega
    | ⟨1, _⟩ => show win0_1.index t (1 : Fin 2) * 1024 + 1 * o.val = o.val; omega)
  show V m c main_v0 (((cfg0.win 1).blk t).view.emb (ix2 i o)) = _
  rw [h]
  exact ct_apply m c i o

theorem blk_c2 (c : Dev nD) (t : Fin cfg0.N) (o : Fin 1024) :
    iblk m c 2 t (ix2 (0 : Fin 1) o)
      = Ideal.ofBits .f32 0x00000000#32 + ∑ i : Fin 512, argC m c (ix2 o i) * argC m c (ix2 o i) := by
  obtain ⟨-, -, -, -, e0, e1, -⟩ := index_maps t
  have h : ((cfg0.win 2).blk t).view.emb (ix2 (0 : Fin 1) o) = ix2 (0 : Fin 1) o := funext fun a => Fin.ext (by
    match a with
    | ⟨0, _⟩ => show win0_2.index t (0 : Fin 2) * 1 + 1 * 0 = 0; omega
    | ⟨1, _⟩ => show win0_2.index t (1 : Fin 2) * 1024 + 1 * o.val = o.val; omega)
  show V m c main_v3 (((cfg0.win 2).blk t).view.emb (ix2 (0 : Fin 1) o)) = _
  rw [h]
  exact c2_apply m c o

theorem blk_w (c : Dev nD) (t : Fin cfg0.N) (o : Fin 1024) :
    iblk m c 3 t (ix2 (0 : Fin 1) o) = Ideal.exp (Ideal.ofBits .f32 0xC0000000#32 * argL m c (ix1 o)) := by
  obtain ⟨-, -, -, -, -, -, e0, e1, -⟩ := index_maps t
  have h : ((cfg0.win 3).blk t).view.emb (ix2 (0 : Fin 1) o) = ix2 (0 : Fin 1) o := funext fun a => Fin.ext (by
    match a with
    | ⟨0, _⟩ => show win0_3.index t (0 : Fin 2) * 1 + 1 * 0 = 0; omega
    | ⟨1, _⟩ => show win0_3.index t (1 : Fin 2) * 1024 + 1 * o.val = o.val; omega)
  show V m c main_v7 (((cfg0.win 3).blk t).view.emb (ix2 (0 : Fin 1) o)) = _
  rw [h]
  exact w_apply m c o

theorem blk_ht (c : Dev nD) (t : Fin cfg0.N) (o : Fin 1024) (n : Fin 5) :
    iblk m c 4 t (ix2 o n) = argW m c (ix2 n o) := by
  obtain ⟨-, -, -, -, -, -, -, -, e0, e1, -⟩ := index_maps t
  have h : ((cfg0.win 4).blk t).view.emb (ix2 o n) = ix2 o n := funext fun a => Fin.ext (by
    match a with
    | ⟨0, _⟩ => show win0_4.index t (0 : Fin 2) * 1024 + 1 * o.val = o.val; omega
    | ⟨1, _⟩ => show win0_4.index t (1 : Fin 2) * 5 + 1 * n.val = n.val; omega)
  show V m c main_v8 (((cfg0.win 4).blk t).view.emb (ix2 o n)) = _
  rw [h]
  exact ht_apply m c o n

theorem blk_hb (c : Dev nD) (t : Fin cfg0.N) (n : Fin 5) :
    iblk m c 5 t (ix2 (0 : Fin 1) n) = argB m c (ix1 n) := by
  obtain ⟨-, -, -, -, -, -, -, -, -, -, e0, e1, -⟩ := index_maps t
  have h : ((cfg0.win 5).blk t).view.emb (ix2 (0 : Fin 1) n) = ix2 (0 : Fin 1) n := funext fun a => Fin.ext (by
    match a with
    | ⟨0, _⟩ => show win0_5.index t (0 : Fin 2) * 1 + 1 * 0 = 0; omega
    | ⟨1, _⟩ => show win0_5.index t (1 : Fin 2) * 5 + 1 * n.val = n.val; omega)
  show V m c main_v9 (((cfg0.win 5).blk t).view.emb (ix2 (0 : Fin 1) n)) = _
  rw [h]
  exact hb_apply m c n

/-! ## What a point writes back, the cover, and the array after the run -/

/-- The network's output of the argument arrays on core c. -/
abbrev result (c : Dev nD) : S16384x5.Idx → EReal :=
  RbfSpec.outArr (argX m c) (argC m c) (argL m c) (argW m c) (argB m c)

/-- What point t writes back is block t of the network's output of the arguments. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero zero_offsets]
  simp only [View.ld_unit_zero (S := S1024x512) zero_offsets, View.ld_unit_zero (S := S512x1024) zero_offsets,
    View.ld_unit_zero (S := S1x1024) zero_offsets, View.ld_unit_zero (S := S1024x5) zero_offsets,
    View.ld_unit_zero (S := S1x5) zero_offsets]
  funext y
  obtain ⟨p, n, rfl⟩ : ∃ (p : Fin 1024) (n : Fin 5), y = ix2 p n := ⟨y 0, y 1, eq_ix2 y⟩
  have ht : t.val < 16 := lt_of_lt_of_eq t.isLt N_0
  obtain ⟨-, -, -, -, -, -, -, -, -, -, -, -, e0, e1⟩ := index_maps t
  have hrow : ((((cfg0.win 6).blk t).view.emb (ix2 p n)) 0 : Fin 16384) = (⟨t.val * 1024 + p.val, by omega⟩ : Fin 16384) :=
    Fin.ext (by show win0_6.index t (0 : Fin 2) * 1024 + 1 * p.val = t.val * 1024 + p.val; omega)
  have hcol : ((((cfg0.win 6).blk t).view.emb (ix2 p n)) 1 : Fin 5) = n :=
    Fin.ext (by show win0_6.index t (1 : Fin 2) * 5 + 1 * n.val = n.val; omega)
  show k0_pay1 (F := Ideal) (iblk m c 0 t) (iblk m c 1 t) (iblk m c 2 t) (iblk m c 3 t) (iblk m c 4 t) (iblk m c 5 t) (ix2 p n)
    = RbfSpec.out (argX m c) (argC m c) (argL m c) (argW m c) (argB m c)
        ((((cfg0.win 6).blk t).view.emb (ix2 p n)) 0) ((((cfg0.win 6).blk t).view.emb (ix2 p n)) 1)
  rw [hrow, hcol, Payload.pay_apply (iblk m c 0 t) (iblk m c 1 t) (iblk m c 2 t) (iblk m c 3 t) (iblk m c 4 t) (iblk m c 5 t) p n]
  unfold RbfSpec.out RbfSpec.rawDist
  simp only [blk_x m c t p _ ⟨t.val * 1024 + p.val, by omega⟩ rfl, blk_ct m c t, blk_c2 m c t, blk_w m c t, blk_ht m c t,
    blk_hb m c t]

/-- An index of the result is in point t's block iff each coordinate is in the block's range on its axis. -/
theorem mem_blk (t : Fin cfg0.N) (i : S16384x5.Idx) :
    i ∈ ((cfg0.win 6).blk t).view.set
      ↔ ∀ a : Fin 2, win0_6.index t a * S1024x5.size a ≤ (i a).val ∧ (i a).val < win0_6.index t a * S1024x5.size a + S1024x5.size a := by
  show i ∈ ((View.whole main_v10).slice (win0_6.rect t)).set ↔ _
  rw [View.set_slice_whole, Rect.mem_set_unit]
  exact Iff.rfl

/-- Every row of the result lies in the block of the point numbered by its row divided by 1024. -/
theorem cover (i : S16384x5.Idx) : ∃ t : Fin cfg0.N, (cfg0.win 6).flush t = true ∧ i ∈ ((cfg0.win 6).blk t).view.set := by
  have hi0 : (i 0).val < 16384 := (i 0).isLt
  have hi1 : (i 1).val < 5 := (i 1).isLt
  have hN : cfg0.N = 16 := N_0
  let t : Fin cfg0.N := ⟨(i 0).val / 1024, by rw [hN]; omega⟩
  obtain ⟨-, -, -, -, -, -, -, -, -, -, -, -, e0, e1⟩ := index_maps t
  have e0' : win0_6.index t (0 : Fin 2) = (i 0).val / 1024 := e0
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 5 ≤ (i 1).val ∧ (i 1).val < win0_6.index t (1 : Fin 2) * 5 + 5; omega

/-- The result array after the run is the network's output of the arguments. -/
theorem final (c : Dev nD) : (dats m 0 c).arrAt 6 cfg0.N = result m c :=
  (dats m 0 c).arrAt_eq_of_cover 6 (result m c) (fun t _ => flushed_eq m c t) cover

/-- The kernel's run: every weakly fair execution terminates with the result array at the network's output of the
    arguments and the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KernelValue

end
-- ==== Proof.RefValue.lean ====
/-
  The reference's result array, as one function of the argument arrays.

  Read one operation at a time and one entry at a time, the reference's result at (b, n) is the head applied to the
  radial-basis values whose exponent is the negated square of distance over width — the second arrangement of
  `RbfSpec` — with every broadcast and reshape reduced to the coordinates it reads.
-/
import proofs.«135704_j72138270704369_1_alg».proof.Proof.Gen.ReferenceIdeal.Read
import proofs.«135704_j72138270704369_1_alg».proof.Proof.RbfSpec

noncomputable section

namespace Cert.ReferenceIdeal.RefValue

open Cert.ReferenceIdeal Cert.ReferenceIdeal.Gen Cert.ReferenceIdeal.Read Idealize.ShloMosaic Idealize.ShloMosaic.ValueIdx

variable (x : S16384x512.Idx → EReal) (c : S1024x512.Idx → EReal) (l : S1024.Idx → EReal) (f : S5x1024.Idx → EReal)
  (g : S5.Idx → EReal)

/-! ## The coordinates each stage reads -/

theorem lidx23 (b : Fin 16384) (n : Fin 5) (o : Fin 1024) : lidx_main_v23 (ix2 b n) o = ix2 b o :=
  funext fun a => Fin.ext (by match a with | ⟨0, _⟩ => rfl | ⟨1, _⟩ => rfl)
theorem ridx23 (b : Fin 16384) (n : Fin 5) (o : Fin 1024) : ridx_main_v23 (ix2 b n) o = ix2 n o :=
  funext fun a => Fin.ext (by match a with | ⟨0, _⟩ => rfl | ⟨1, _⟩ => rfl)
theorem idx_bias (b : Fin 16384) (n : Fin 5) : idx_main_v24 (idx_main_v25 (ix2 b n)) = ix1 n :=
  funext fun a => Fin.ext (by match a with | ⟨0, _⟩ => rfl)
theorem idx_xnorm (b : Fin 16384) (o : Fin 1024) (k : Fin 512) :
    idx_main_v1 (idx_main_v2 (idx_main_v6 (ix2 b o))) k = ix2 b k :=
  funext fun a => Fin.ext (by match a with | ⟨0, _⟩ => rfl | ⟨1, _⟩ => rfl)
theorem idx_cnorm (b : Fin 16384) (o : Fin 1024) (k : Fin 512) :
    idx_main_v4 (idx_main_v5 (idx_main_v7 (ix2 b o))) k = ix2 o k :=
  funext fun a => Fin.ext (by match a with | ⟨0, _⟩ => rfl | ⟨1, _⟩ => rfl)
theorem lidx9 (b : Fin 16384) (o : Fin 1024) (k : Fin 512) : lidx_main_v9 (ix2 b o) k = ix2 b k :=
  funext fun a => Fin.ext (by match a with | ⟨0, _⟩ => rfl | ⟨1, _⟩ => rfl)
theorem ridx9 (b : Fin 16384) (o : Fin 1024) (k : Fin 512) : ridx_main_v9 (ix2 b o) k = ix2 o k :=
  funext fun a => Fin.ext (by match a with | ⟨0, _⟩ => rfl | ⟨1, _⟩ => rfl)
theorem idx_width (b : Fin 16384) (o : Fin 1024) : idx_main_v17 (idx_main_v18 (ix2 b o)) = ix1 o :=
  funext fun a => Fin.ext (by match a with | ⟨0, _⟩ => rfl)

/-! ## The result at an entry -/

/-- The reference's result at (b, n) is the second arrangement of the network's output. -/
theorem ref_apply (b : Fin 16384) (n : Fin 5) :
    val_main_v26 (F := Ideal) x c l f g (ix2 b n) = RbfSpec.out' x c l f g b n := by
  simp only [val_main_v26_apply, val_main_v25_apply, val_main_v24_apply, val_main_v23_apply, val_main_v22_apply,
    val_main_v21_apply, val_main_v20_apply, val_main_v19_apply, val_main_v18_apply, val_main_v17_apply,
    val_main_v16_apply, val_main_v15_apply, val_main_v14_apply, val_main_v13_apply, val_main_cst_2_apply,
    val_main_v12_apply, val_main_v11_apply, val_main_v10_apply, val_main_cst_1_apply, val_main_v9_apply,
    val_main_v8_apply, val_main_v7_apply, val_main_v6_apply, val_main_v5_apply, val_main_v4_apply, val_main_cst_0_apply,
    val_main_v3_apply, val_main_v2_apply, val_main_v1_apply, val_main_cst_apply, val_main_v0_apply,
    lidx23, ridx23, idx_bias, idx_xnorm, idx_cnorm, lidx9, ridx9, idx_width,
    Ideal.addf_def, Ideal.subf_def, Ideal.mulf_def, Ideal.maximumf_def, Ideal.hostDivf_def, Ideal.hostNegf_def,
    Ideal.negf_def, Ideal.hostUnary_exp_def, Ideal.hostUnary_sqrt_def, Ideal.ofBits_def]
  rfl

/-- The reference's result array. -/
theorem ref_eq : val_main_v26 (F := Ideal) x c l f g = fun j => RbfSpec.out' x c l f g (j 0) (j 1) := by
  funext j
  obtain ⟨b, n, rfl⟩ : ∃ (b : Fin 16384) (n : Fin 5), j = ix2 b n := ⟨j 0, j 1, eq_ix2 j⟩
  exact ref_apply x c l f g b n

end Cert.ReferenceIdeal.RefValue

end
-- ==== Proof.Finite.lean ====
/-
  What the precondition says of the log-widths.

  The precondition is the conjunction, over the five argument arrays, of "every entry has absolute value below +∞".
  An extended real whose absolute value max (x, −x) is strictly below +∞ is neither −∞ nor +∞, so it is a real
  number. Read at the third array this gives: every log-width is a real number.
-/
import proofs.«135704_j72138270704369_1_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

variable [Facts]

instance : Subsingleton S_.Idx := ⟨fun _ _ => funext fun d => d.elim0⟩

/-- The pattern of the positive infinity denotes `+∞`. -/
theorem ofBits_inf : Ideal.ofBits .f32 0x7F800000#32 = ⊤ := by simp [Ideal.ofBits, Ideal.ieee]

/-- An extended real whose absolute value is strictly below `+∞` is a real number. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- Under the precondition every entry of the third argument array, the log-widths, is a real number. -/
theorem log_sigmas_real (x0 : FVec Ideal S16384x512 .f32) (x1 : FVec Ideal S1024x512 .f32) (x2 : FVec Ideal S1024 .f32)
    (x3 : FVec Ideal S5x1024 .f32) (x4 : FVec Ideal S5 .f32) (h : fn (F := Ideal) x0 x1 x2 x3 x4 = fun _ => 1#1) (o : Fin 1024) :
    ∃ r : ℝ, x2 (ix1 o) = (r : EReal) := by
  have h0 := congrFun h ix0
  dsimp only [fn, fn_part1] at h0
  have h1 := (IntOp.andi_eq_one.1 h0).1
  have h2 := (IntOp.andi_eq_one.1 h1).1
  have h3 := (IntOp.andi_eq_one.1 h2).2
  have h4 := Host.reduce_andi_all _ _ _ _ _ h3 (ix1 o)
  exact real_of_abs_lt_top _ (by rw [← ofBits_inf]; exact h4)

end Cert.Pre_finite_inputs.Finite

end
-- ==== Proof.lean ====
/-
  A radial-basis network: the squared distance of each input row to each centre by the Gram-matrix identity
  ‖x‖² + ‖c‖² − 2·x·c, clamped at zero, a Gaussian of it with a per-centre width, and a linear head.

  The kernel works on blocks of 1024 input rows with the centre norms ‖c‖² and the inverse squared widths
  exp (−2·l) prepared once, and forms the Gaussian as exp (−s · exp (−2·l)); the reference forms
  exp (−(√s / exp l)²) over the whole batch. On the extended reals the matrix products and row sums of the two
  programs are the same finite sums, so the results differ only in the exponent, and for 0 ≤ s and a real l the two
  exponents are one number: (√s)² = s and exp (−2·l) = (1 / exp l)², and at s = +∞ both are −∞. That the
  log-widths l are real is what the precondition is used for.

  The three frames are the programs' runs; the idealization rewrote nothing; the algebraic claim sets the kernel's
  run (result = the first arrangement of the output, block by block) beside the reference's run (result = the
  second arrangement) and joins them by the scalar law.
-/
import proofs.«135704_j72138270704369_1_alg».proof.Defs
import proofs.«135704_j72138270704369_1_alg».proof.Proof.Gen.Kernel
import proofs.«135704_j72138270704369_1_alg».proof.Proof.Gen.Kernel.Skeleton
import proofs.«135704_j72138270704369_1_alg».proof.Proof.Gen.Kernel.Launch
import proofs.«135704_j72138270704369_1_alg».proof.Proof.Gen.Kernel.Points
import proofs.«135704_j72138270704369_1_alg».proof.Proof.Gen.Kernel.Frame
import proofs.«135704_j72138270704369_1_alg».proof.Proof.Gen.KernelIdeal
import proofs.«135704_j72138270704369_1_alg».proof.Proof.Gen.KernelIdeal.Skeleton
import proofs.«135704_j72138270704369_1_alg».proof.Proof.Gen.KernelIdeal.Launch
import proofs.«135704_j72138270704369_1_alg».proof.Proof.Gen.KernelIdeal.Points
import proofs.«135704_j72138270704369_1_alg».proof.Proof.Gen.KernelIdeal.Frame
import proofs.«135704_j72138270704369_1_alg».proof.Proof.Gen.ReferenceIdeal
import proofs.«135704_j72138270704369_1_alg».proof.Proof.Gen.KernelIdeal.Value
import proofs.«135704_j72138270704369_1_alg».proof.Proof.Gen.ReferenceIdeal.Run
import proofs.«135704_j72138270704369_1_alg».proof.Proof.Gen.ReferenceIdeal.Read
import proofs.«135704_j72138270704369_1_alg».proof.Proof.Gen.Pre_finite_inputs
import proofs.«135704_j72138270704369_1_alg».proof.Proof.KernelValue
import proofs.«135704_j72138270704369_1_alg».proof.Proof.RefValue
import proofs.«135704_j72138270704369_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with its result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the log-widths real, both programs end with the network's output:
    the kernel with the first arrangement, the reference with the second, and the two are one function. -/
theorem algebraic : Cert.algebraic_KernelIdeal_ReferenceIdeal := by
  intro m ρ m' ρ' hpre hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.ref_eq, (hagree c).1, (hagree c).2.1,
    (hagree c).2.2.1, (hagree c).2.2.2.1, (hagree c).2.2.2.2]
  funext j
  exact Cert.RbfSpec.out'_eq _ _ _ _ _
    (fun o => Cert.Pre_finite_inputs.Finite.log_sigmas_real _ _ _ _ _ (hpre c) o) (j 0) (j 1)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
